-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x3 : Shape := ⟨3, ![64, 512, 3]⟩
abbrev S_ : Shape := ⟨0, ![]⟩

class Facts : Prop where
  bcast_S_S64x512x3 : S_.BroadcastsInDim S64x512x3 (![] : Fin 0 → Fin S64x512x3.rank)
  reducesTo_S64x512x3_S_d0_1_2 : S64x512x3.ReducesTo [0, 1, 2] S_
  h_S_ : 0 < S_.numel

variable [Facts]

def fn {F : FTy → Type} [FloatOps F] (main_arg0 : FVec F S64x512x3 .f32) : IVec S_ 1 :=
  let main_v0 : FVec F S64x512x3 .f32 := Host.absf main_arg0
  let main_cst : FVec F S_ .f32 := constant S_ .f32 0x7F800000#32
  let main_v1 : FVec F S64x512x3 .f32 := broadcastInDim S64x512x3 ![] bcast_S_S64x512x3 main_cst
  let main_v2 : IVec S64x512x3 1 := cmpf .olt main_v0 main_v1
  let main_c : IVec S_ 1 := constantI S_ 1 1#1
  let main_v3 : IVec S_ 1 := (fun x v => Host.reduce IntOp.andi x v reducesTo_S64x512x3_S_d0_1_2 h_S_) main_v2 main_c
  main_v3
-- ==== Kernel.lean ====
abbrev S64x512x3 : Shape := ⟨3, ![64, 512, 3]⟩
abbrev S64x3x512 : Shape := ⟨3, ![64, 3, 512]⟩
abbrev S64x3x512x512 : Shape := ⟨4, ![64, 3, 512, 512]⟩
abbrev S1x512x3 : Shape := ⟨3, ![1, 512, 3]⟩
abbrev S1x3x512 : Shape := ⟨3, ![1, 3, 512]⟩
abbrev S1x3x512x512 : Shape := ⟨4, ![1, 3, 512, 512]⟩
abbrev S512x3 : Shape := ⟨2, ![512, 3]⟩
abbrev S3x512 : Shape := ⟨2, ![3, 512]⟩
abbrev S512x1 : Shape := ⟨2, ![512, 1]⟩
abbrev S1x512 : Shape := ⟨2, ![1, 512]⟩
abbrev S512x512 : Shape := ⟨2, ![512, 512]⟩
abbrev S1x1x512x512 : Shape := ⟨4, ![1, 1, 512, 512]⟩
abbrev S64x512x512x3 : Shape := ⟨4, ![64, 512, 512, 3]⟩

abbrev nBuf : Space → Nat
  | .hbm => 4
  | .vmem => 6
  | .smem => 0
  | _ => 0

abbrev bufTy : (tb : Table) → Fin (tcTables nBuf tb) → BufTy
  | .hbm, ⟨0, _⟩ => ⟨S64x512x3, .f32⟩
  | .hbm, ⟨1, _⟩ => ⟨S64x3x512, .f32⟩
  | .hbm, ⟨2, _⟩ => ⟨S64x3x512x512, .f32⟩
  | .hbm, ⟨3, _⟩ => ⟨S64x512x512x3, .f32⟩
  | .local _ .vmem, ⟨0, _⟩ => ⟨S1x512x3, .f32⟩
  | .local _ .vmem, ⟨1, _⟩ => ⟨S1x512x3, .f32⟩
  | .local _ .vmem, ⟨2, _⟩ => ⟨S1x3x512, .f32⟩
  | .local _ .vmem, ⟨3, _⟩ => ⟨S1x3x512, .f32⟩
  | .local _ .vmem, ⟨4, _⟩ => ⟨S1x3x512x512, .f32⟩
  | .local _ .vmem, ⟨5, _⟩ => ⟨S1x3x512x512, .f32⟩
  | _, _ => ⟨S64x512x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S64x512x3_S64x3x512_0_2_1 : S64x512x3.Transposes [0, 2, 1] S64x3x512
  inb_S1x512x3_S1x512x3_0_0_0 : ∀ a, (![0, 0, 0] : Fin 3 → Nat) a + S1x512x3.size a ≤ S1x512x3.size a
  h_S1x512x3 : 0 < S1x512x3.numel
  shapeCasts_S1x512x3_S512x3 : S1x512x3.ShapeCasts S512x3
  inb_S1x3x512_S1x3x512_0_0_0 : ∀ a, (![0, 0, 0] : Fin 3 → Nat) a + S1x3x512.size a ≤ S1x3x512.size a
  h_S1x3x512 : 0 < S1x3x512.numel
  shapeCasts_S1x3x512_S3x512 : S1x3x512.ShapeCasts S3x512
  iota_S512x1_d0_w32 : S512x1.Iotas .tc 32 [0]
  iota_S1x512_d1_w32 : S1x512.Iotas .tc 32 [1]
  broadcasts_S512x1_S512x512 : S512x1.Broadcasts S512x512
  broadcasts_S1x512_S512x512 : S1x512.Broadcasts S512x512
  slices_S512x3_o0_0_S512x1 : S512x3.Slices ![0, 0] S512x1
  slices_S3x512_o0_0_S1x512 : S3x512.Slices ![0, 0] S1x512
  slices_S512x3_o0_1_S512x1 : S512x3.Slices ![0, 1] S512x1
  slices_S3x512_o1_0_S1x512 : S3x512.Slices ![1, 0] S1x512
  slices_S512x3_o0_2_S512x1 : S512x3.Slices ![0, 2] S512x1
  slices_S3x512_o2_0_S1x512 : S3x512.Slices ![2, 0] S1x512
  natLt_1_32 : 1 < 32
  inb_S1x3x512x512_S1x1x512x512_0_0_0_0 : ∀ a, (![0, 0, 0, 0] : Fin 4 → Nat) a + S1x1x512x512.size a ≤ S1x3x512x512.size a
  h_S1x1x512x512 : 0 < S1x1x512x512.numel
  shapeCasts_S1x1x512x512_S512x512 : S1x1x512x512.ShapeCasts S512x512
  shapeCasts_S512x512_S1x1x512x512 : S512x512.ShapeCasts S1x1x512x512
  inb_S1x3x512x512_S1x1x512x512_0_1_0_0 : ∀ a, (![0, 1, 0, 0] : Fin 4 → Nat) a + S1x1x512x512.size a ≤ S1x3x512x512.size a
  inb_S1x3x512x512_S1x1x512x512_0_2_0_0 : ∀ a, (![0, 2, 0, 0] : Fin 4 → Nat) a + S1x1x512x512.size a ≤ S1x3x512x512.size a
  transposes_S64x3x512x512_S64x512x512x3_0_2_3_1 : S64x3x512x512.Transposes [0, 2, 3, 1] S64x512x512x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x3.size a ≤ S64x512x3.size a
  hwx0_0 : ∀ i : grid0.Coords, EltTy.bits .f32 = 32 ∨ (Rect.block (s := S64x512x3) S1x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x512.size a ≤ S64x3x512.size a
  hwx0_1 : ∀ i : grid0.Coords, EltTy.bits .f32 = 32 ∨ (Rect.block (s := S64x3x512) S1x3x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x512x512.size a ≤ S64x3x512x512.size a
  hwx0_2 : ∀ i : grid0.Coords, EltTy.bits .f32 = 32 ∨ (Rect.block (s := S64x3x512x512) S1x3x512x512.size (cc0_transform_2 i) (hinb0_2 i)).WholeWords (EltTy.packing .f32)

variable [Facts₀]

abbrev win0_0 : Pipeline.Window sig grid0 :=
  Pipeline.Window.ofSpec (Memref.whole main_arg0) S1x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x3x512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x512x3 : Shape := ⟨3, ![64, 512, 3]⟩
abbrev S64x1x512x3 : Shape := ⟨4, ![64, 1, 512, 3]⟩
abbrev S64x512x1x3 : Shape := ⟨4, ![64, 512, 1, 3]⟩
abbrev S64x512x512x3 : Shape := ⟨4, ![64, 512, 512, 3]⟩
abbrev S_ : Shape := ⟨0, ![]⟩
abbrev S64x512x512 : Shape := ⟨3, ![64, 512, 512]⟩
abbrev S512x512 : Shape := ⟨2, ![512, 512]⟩
abbrev S1x512x512 : Shape := ⟨3, ![1, 512, 512]⟩
abbrev S64x512x512x1 : Shape := ⟨4, ![64, 512, 512, 1]⟩

abbrev nBuf : Space → Nat
  | .hbm => 26
  | .vmem => 0
  | .smem => 0
  | _ => 0

abbrev bufTy : (tb : Table) → Fin (tcTables nBuf tb) → BufTy
  | .hbm, ⟨0, _⟩ => ⟨S64x512x3, .f32⟩
  | .hbm, ⟨1, _⟩ => ⟨S64x1x512x3, .f32⟩
  | .hbm, ⟨2, _⟩ => ⟨S64x512x1x3, .f32⟩
  | .hbm, ⟨3, _⟩ => ⟨S64x512x512x3, .f32⟩
  | .hbm, ⟨4, _⟩ => ⟨S64x512x512x3, .f32⟩
  | .hbm, ⟨5, _⟩ => ⟨S64x512x512x3, .f32⟩
  | .hbm, ⟨6, _⟩ => ⟨S64x512x512x3, .f32⟩
  | .hbm, ⟨7, _⟩ => ⟨S_, .f32⟩
  | .hbm, ⟨8, _⟩ => ⟨S64x512x512, .f32⟩
  | .hbm, ⟨9, _⟩ => ⟨S512x512, .i32⟩
  | .hbm, ⟨10, _⟩ => ⟨S512x512, .i32⟩
  | .hbm, ⟨11, _⟩ => ⟨S_, .i32⟩
  | .hbm, ⟨12, _⟩ => ⟨S512x512, .i32⟩
  | .hbm, ⟨13, _⟩ => ⟨S512x512, .i32⟩
  | .hbm, ⟨14, _⟩ => ⟨S512x512, .i1⟩
  | .hbm, ⟨15, _⟩ => ⟨S_, .f32⟩
  | .hbm, ⟨16, _⟩ => ⟨S64x512x512, .f32⟩
  | .hbm, ⟨17, _⟩ => ⟨S64x512x512, .i1⟩
  | .hbm, ⟨18, _⟩ => ⟨S512x512, .i1⟩
  | .hbm, ⟨19, _⟩ => ⟨S1x512x512, .i1⟩
  | .hbm, ⟨20, _⟩ => ⟨S64x512x512, .i1⟩
  | .hbm, ⟨21, _⟩ => ⟨S64x512x512, .i1⟩
  | .hbm, ⟨22, _⟩ => ⟨S64x512x512x1, .i1⟩
  | .hbm, ⟨23, _⟩ => ⟨S64x512x512x1, .f32⟩
  | .hbm, ⟨24, _⟩ => ⟨S64x512x512x3, .f32⟩
  | .hbm, ⟨25, _⟩ => ⟨S64x512x512x3, .f32⟩
  | _, _ => ⟨S64x512x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩

abbrev nD : Nat := 1
abbrev τ : Topo := Topo.v7x

variable {F : FTy → Type} [FloatOps F]

class Facts₀ : Prop where
  bcast_S64x512x3_S64x1x512x3_0_2_3 : S64x512x3.BroadcastsInDim S64x1x512x3 (![0, 2, 3] : Fin 3 → Fin S64x1x512x3.rank)
  bcast_S64x512x3_S64x512x1x3_0_1_3 : S64x512x3.BroadcastsInDim S64x512x1x3 (![0, 1, 3] : Fin 3 → Fin S64x512x1x3.rank)
  bcast_S64x1x512x3_S64x512x512x3_0_1_2_3 : S64x1x512x3.BroadcastsInDim S64x512x512x3 (![0, 1, 2, 3] : Fin 4 → Fin S64x512x512x3.rank)
  bcast_S64x512x1x3_S64x512x512x3_0_1_2_3 : S64x512x1x3.BroadcastsInDim S64x512x512x3 (![0, 1, 2, 3] : Fin 4 → Fin S64x512x512x3.rank)
  reducesTo_S64x512x512x3_S64x512x512_d3 : S64x512x512x3.ReducesTo [3] S64x512x512
  h_S_ : 0 < S_.numel
  bcast_S_S512x512 : S_.BroadcastsInDim S512x512 (![] : Fin 0 → Fin S512x512.rank)
  bcast_S_S64x512x512 : S_.BroadcastsInDim S64x512x512 (![] : Fin 0 → Fin S64x512x512.rank)
  bcast_S512x512_S1x512x512_1_2 : S512x512.BroadcastsInDim S1x512x512 (![1, 2] : Fin 2 → Fin S1x512x512.rank)
  bcast_S1x512x512_S64x512x512_0_1_2 : S1x512x512.BroadcastsInDim S64x512x512 (![0, 1, 2] : Fin 3 → Fin S64x512x512.rank)
  bcast_S64x512x512_S64x512x512x1_0_1_2 : S64x512x512.BroadcastsInDim S64x512x512x1 (![0, 1, 2] : Fin 3 → Fin S64x512x512x1.rank)
  bcast_S64x512x512x1_S64x512x512x3_0_1_2_3 : S64x512x512x1.BroadcastsInDim S64x512x512x3 (![0, 1, 2, 3] : Fin 4 → Fin S64x512x512x3.rank)

variable [Facts₀]

class Facts : Prop extends Facts₀ where

variable [Facts]
-- ==== Proof.LibColumnLayout.lean ====
/-
  Layout operations read at an index given by coordinates, for the shapes a kernel meets when it works on a square
  tile one column at a time and stores the tile into a stack of tiles:

  * a column `[a, 1]` broadcast over `[a, b]` reads, at `(p, c)`, the column's entry `p`;
  * an `[a, b]` array cast to `[1, 1, a, b]` reads, at `(u, v, i, j)`, the operand at `(i, j)`;
  * a rank-4 array whose axes are permuted by `[0, 2, 3, 1]` (a channel axis moved from second to last) reads, at
    `(m, i, j, c)`, the operand at `(m, c, i, j)`.

  Each is the general lemma of the layout library with the coordinate arithmetic discharged.
-/
import Idealize.ShloMosaic.Lib.Pipeline.Value
import Idealize.ShloMosaic.Lib.ValueIdx

namespace Idealize.ShloMosaic.ValueIdx

open Idealize.ShloMosaic

variable {α : Type}

/-- An `[a, 1]` column broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[1, 1, a, b]` reads, at `(u, v, i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-- A rank-4 array with its second axis moved last (permutation `[0, 2, 3, 1]`) reads, at `(m, i, j, c)`, the
    operand at `(m, c, i, j)`. -/
theorem transpose_ix4_0231_apply {n c a b : ℕ} (x : (⟨4, ![n, c, a, b]⟩ : Shape).Idx → α)
    (h : (⟨4, ![n, c, a, b]⟩ : Shape).Transposes [0, 2, 3, 1] ⟨4, ![n, a, b, c]⟩)
    (m : Fin n) (i : Fin a) (j : Fin b) (k : Fin c) :
    transpose ⟨4, ![n, a, b, c]⟩ [0, 2, 3, 1] x h (ix4 m i j k) = x (ix4 m k i j) :=
  transpose_apply _ x h _ _ fun d => match d with
    | ⟨0, _⟩ => rfl | ⟨1, _⟩ => rfl | ⟨2, _⟩ => rfl | ⟨3, _⟩ => rfl

end Idealize.ShloMosaic.ValueIdx
-- ==== Proof.PairSpec.lean ====
/-
  The dense neighbour list of a batch of molecules, as one function of the positions.

  For positions `X : molecule × atom × channel → extended real`, the displacement from atom `i` to atom `j` of molecule
  `b` in channel `c` is `X b j c − X b i c`. The pair `(i, j)` is KEPT when its squared distance,
  `0 + Σ_c (X b j c − X b i c)²`, is below the squared cutoff `49` and `i ≠ j` (compared as 32-bit atom numbers). The list's
  entry at `(b, i, j, c)` is the displacement times the kept bit read as the number 0 or 1.

  `entry` is that value for two atoms given as 3-vectors; `pairs` lays it out as `[molecule, i, j, channel]`,
  `pairsCM` channel-major as `[molecule, channel, i, j]`. Below the definitions: the three small laws that join the two
  ways the value is computed (the squared distance summed term by term from 0 against the sum over the channel; the
  bit negated by an exclusive-or with 1; the bit widened to 32 bits and read as a SIGNED integer against the bit read
  as an unsigned one), and the layout reads of one 512 × 512 tile of displacements built from a column of i-atoms and a
  row of j-atoms.
-/
import Idealize.ShloMosaic.PureOps.Ideal
import Idealize.ShloMosaic.Lib.ValueIdx
import Idealize.ShloMosaic.Lib.ValueLayout
import proofs.«126960_j23330262352092_2_alg».proof.Proof.LibColumnLayout

noncomputable section

namespace Cert.NeighbourList

open Idealize.ShloMosaic Idealize.ShloMosaic.ValueIdx

/-! ## The value -/

/-- Displacement from atom `pi` to atom `pj` in channel `c`. -/
def gap (pj pi : Fin 3 → EReal) (c : Fin 3) : EReal := pj c - pi c

/-- Squared distance, summed over the three channels from the zero word. -/
def dist2 (pj pi : Fin 3 → EReal) : EReal :=
  Ideal.ofBits .f32 0x00000000#32 + ∑ k : Fin 3, gap pj pi k * gap pj pi k

/-- The bit "atom numbers `i` and `j` differ". -/
def offDiag (i j : Fin 512) : BitVec 1 := ~~~ IntOp.cmpi .eq (BitVec.ofNat 32 i.val) (BitVec.ofNat 32 j.val)

/-- The bit "the pair is kept": squared distance below the squared cutoff 49, and not the atom itself. -/
def kept (pj pi : Fin 3 → EReal) (i j : Fin 512) : BitVec 1 :=
  IntOp.andi (Ideal.cmp .olt (dist2 pj pi) (Ideal.ofBits .f32 0x42440000#32)) (offDiag i j)

/-- One entry of the list: the displacement where the pair is kept, zero times it elsewhere. -/
def entry (pj pi : Fin 3 → EReal) (i j : Fin 512) (c : Fin 3) : EReal :=
  gap pj pi c * (((kept pj pi i j).toNat : ℝ) : EReal)

/-- Atom `i` of molecule `b` as a 3-vector. -/
def atom (X : (⟨3, ![64, 512, 3]⟩ : Shape).Idx → EReal) (b : Fin 64) (i : Fin 512) : Fin 3 → EReal := fun c => X (ix3 b i c)

/-- The list at coordinates. -/
def pairsAt (X : (⟨3, ![64, 512, 3]⟩ : Shape).Idx → EReal) (b : Fin 64) (i j : Fin 512) (c : Fin 3) : EReal :=
  entry (atom X b j) (atom X b i) i j c

/-- The list laid out `[molecule, i, j, channel]`. -/
def pairs (X : (⟨3, ![64, 512, 3]⟩ : Shape).Idx → EReal) : (⟨4, ![64, 512, 512, 3]⟩ : Shape).Idx → EReal :=
  fun q => pairsAt X (q 0) (q 1) (q 2) (q 3)

/-- The list laid out channel-major, `[molecule, channel, i, j]`. -/
def pairsCM (X : (⟨3, ![64, 512, 3]⟩ : Shape).Idx → EReal) : (⟨4, ![64, 3, 512, 512]⟩ : Shape).Idx → EReal :=
  fun q => pairsAt X (q 0) (q 2) (q 3) (q 1)

/-! ## The laws joining the two computations -/

/-- The three squares added one after the other onto the zero word are the zero word plus their sum: addition on the
    extended reals is associative. -/
theorem dist2_chain (pj pi : Fin 3 → EReal) :
    ((Ideal.ofBits .f32 0x00000000#32 + gap pj pi 0 * gap pj pi 0) + gap pj pi 1 * gap pj pi 1) + gap pj pi 2 * gap pj pi 2
      = dist2 pj pi := by
  unfold dist2
  rw [Fin.sum_univ_three]
  simp only [add_assoc]

/-- On one bit, exclusive-or with 1 is negation. -/
theorem xor_one_eq_not (b : BitVec 1) : IntOp.xori b 1#1 = ~~~ b := by
  revert b; decide

/-- Adding the zero word changes nothing. -/
theorem addi_zero (x : BitVec 32) : IntOp.addi x 0#32 = x := by
  unfold IntOp.addi; exact BitVec.add_zero x

/-- One bit widened with zeros to 32 bits and read as a signed integer is the bit read as a natural number. -/
theorem bit_signed_eq_unsigned (b : BitVec 1) : ((((b.setWidth 32).toInt : ℤ) : ℝ) : EReal) = ((b.toNat : ℝ) : EReal) := by
  have h : (b.setWidth 32).toInt = (b.toNat : ℤ) := by revert b; decide
  rw [h, Int.cast_natCast]

/-- The kept bit as the kernel computes it — squares added one by one, the self-pair excluded by an exclusive-or,
    the bit widened and converted as a signed integer — is the kept bit as a number. -/
theorem kept_signed (pj pi : Fin 3 → EReal) (i j : Fin 512) :
    (((((IntOp.andi (Ideal.cmp .olt
        (((Ideal.ofBits .f32 0x00000000#32 + gap pj pi 0 * gap pj pi 0) + gap pj pi 1 * gap pj pi 1) + gap pj pi 2 * gap pj pi 2)
        (Ideal.ofBits .f32 0x42440000#32))
        (IntOp.xori (IntOp.cmpi .eq (BitVec.ofNat 32 i.val) (BitVec.ofNat 32 j.val)) 1#1)).setWidth 32).toInt : ℤ) : ℝ) : EReal)
      = (((kept pj pi i j).toNat : ℝ) : EReal) := by
  rw [dist2_chain, xor_one_eq_not]
  exact bit_signed_eq_unsigned _

/-! ## One tile: a column of i-atoms against a row of j-atoms -/

section Tile

variable {α : Type}

/-- Row `k` of a `[3, 512]` array of j-atoms, cut out and repeated down the 512 rows of a tile, reads at `(i, j)` the
    array at `(k, j)`. -/
theorem rowTile_apply (v : (⟨2, ![3, 512]⟩ : Shape).Idx → α) (k : Fin 3)
    (hs : (⟨2, ![3, 512]⟩ : Shape).Slices ![k.val, 0] ⟨2, ![1, 512]⟩)
    (hb : (⟨2, ![1, 512]⟩ : Shape).Broadcasts ⟨2, ![512, 512]⟩) (i j : Fin 512) :
    broadcastTo ⟨2, ![512, 512]⟩ (extractStridedSlice ⟨2, ![1, 512]⟩ ![k.val, 0] v hs) hb (ix2 i j) = v (ix2 k j) :=
  (broadcastTo_1b_ab_apply _ hb i j).trans
    (slice2_axis0_apply k.val v hs (0 : Fin 1) j k (by simp))

/-- Column `k` of a `[512, 3]` array of i-atoms, cut out and repeated across the 512 columns of a tile, reads at
    `(i, j)` the array at `(i, k)`. -/
theorem colTile_apply (v : (⟨2, ![512, 3]⟩ : Shape).Idx → α) (k : Fin 3)
    (hs : (⟨2, ![512, 3]⟩ : Shape).Slices ![0, k.val] ⟨2, ![512, 1]⟩)
    (hb : (⟨2, ![512, 1]⟩ : Shape).Broadcasts ⟨2, ![512, 512]⟩) (i j : Fin 512) :
    broadcastTo ⟨2, ![512, 512]⟩ (extractStridedSlice ⟨2, ![512, 1]⟩ ![0, k.val] v hs) hb (ix2 i j) = v (ix2 i k) :=
  (broadcastTo_a1_ab_apply _ hb i j).trans
    (slice2_axis1_apply k.val v hs i (0 : Fin 1) k (by simp))

/-- The atom number down the rows of a tile: a one-column count along the rows, repeated across the columns. -/
theorem rowNumber_apply (κ : Kind) (h : (⟨2, ![512, 1]⟩ : Shape).Iotas κ 32 [0])
    (hb : (⟨2, ![512, 1]⟩ : Shape).Broadcasts ⟨2, ![512, 512]⟩) (i j : Fin 512) :
    broadcastTo ⟨2, ![512, 512]⟩ (iota κ ⟨2, ![512, 1]⟩ 32 [0] h) hb (ix2 i j) = BitVec.ofNat 32 i.val :=
  (broadcastTo_a1_ab_apply _ hb i j).trans (iota_single_apply κ _ 32 0 h _)

/-- The atom number across the columns of a tile: a one-row count along the columns, repeated down the rows. -/
theorem colNumber_apply (κ : Kind) (h : (⟨2, ![1, 512]⟩ : Shape).Iotas κ 32 [1])
    (hb : (⟨2, ![1, 512]⟩ : Shape).Broadcasts ⟨2, ![512, 512]⟩) (i j : Fin 512) :
    broadcastTo ⟨2, ![512, 512]⟩ (iota κ ⟨2, ![1, 512]⟩ 32 [1] h) hb (ix2 i j) = BitVec.ofNat 32 j.val :=
  (broadcastTo_1b_ab_apply _ hb i j).trans (iota_single_apply κ _ 32 1 h _)

end Tile

end Cert.NeighbourList

end
-- ==== Proof.TileValue.lean ====
/-
  What the kernel body leaves in its output block, index by index.

  The body works on one molecule: `x0` is the molecule's positions `[1, atom, channel]`, `x1` the same positions
  `[1, channel, atom]`. For each channel it forms the 512 × 512 tile of displacements (row `i`, column `j`: atom `j`'s
  coordinate from `x1` minus atom `i`'s from `x0`), one tile of the kept bit as 0 or 1, and stores displacement times bit as
  channel `k` of the `[1, 3, 512, 512]` block. So the block at `(0, k, i, j)` is the neighbour-list entry of the atoms `i`
  and `j` read from the two inputs (`tileFn`); when the two inputs are the two layouts of molecule `b` of one array of
  positions, that is the channel-major list at `(b, k, i, j)`.
-/
import proofs.«126960_j23330262352092_2_alg».proof.Proof.Gen.KernelIdeal.Frame
import proofs.«126960_j23330262352092_2_alg».proof.Proof.PairSpec

noncomputable section

namespace Cert.KernelIdeal.TileValue

open Idealize.ShloMosaic Idealize.ShloMosaic.ValueIdx Cert.KernelIdeal Cert.KernelIdeal.Gen Cert.NeighbourList

/-- Atom `j` as the row input holds it, and atom `i` as the column input holds it. -/
abbrev atomJ (x1 : Vec Ideal S1x3x512 .f32) (j : Fin 512) : Fin 3 → EReal := fun c => x1 (ix3 (0 : Fin 1) c j)
abbrev atomI (x0 : Vec Ideal S1x512x3 .f32) (i : Fin 512) : Fin 3 → EReal := fun c => x0 (ix3 (0 : Fin 1) i c)

/-! ## The displacement tiles -/

theorem gap0_apply (x0 : Vec Ideal S1x512x3 .f32) (x1 : Vec Ideal S1x3x512 .f32) (i j : Fin 512) :
    k0_pay5 x0 x1 (ix2 i j) = gap (atomJ x1 j) (atomI x0 i) 0 := by
  unfold k0_pay5 k0_pay3 k0_pay4 gap
  dsimp only
  refine (subf_apply _ _ _).trans ?_
  refine congrArg₂ (· - ·) ?_ ?_
  · exact (rowTile_apply _ 0 _ _ i j).trans (shapeCast_1ab_ab_apply _ _ 0 j)
  · exact (colTile_apply _ 0 _ _ i j).trans (shapeCast_1ab_ab_apply _ _ i 0)

theorem gap1_apply (x0 : Vec Ideal S1x512x3 .f32) (x1 : Vec Ideal S1x3x512 .f32) (i j : Fin 512) :
    k0_pay6 x0 x1 (ix2 i j) = gap (atomJ x1 j) (atomI x0 i) 1 := by
  unfold k0_pay6 k0_pay3 k0_pay4 gap
  dsimp only
  refine (subf_apply _ _ _).trans ?_
  refine congrArg₂ (· - ·) ?_ ?_
  · exact (rowTile_apply _ 1 _ _ i j).trans (shapeCast_1ab_ab_apply _ _ 1 j)
  · exact (colTile_apply _ 1 _ _ i j).trans (shapeCast_1ab_ab_apply _ _ i 1)

theorem gap2_apply (x0 : Vec Ideal S1x512x3 .f32) (x1 : Vec Ideal S1x3x512 .f32) (i j : Fin 512) :
    k0_pay7 x0 x1 (ix2 i j) = gap (atomJ x1 j) (atomI x0 i) 2 := by
  unfold k0_pay7 k0_pay3 k0_pay4 gap
  dsimp only
  refine (subf_apply _ _ _).trans ?_
  refine congrArg₂ (· - ·) ?_ ?_
  · exact (rowTile_apply _ 2 _ _ i j).trans (shapeCast_1ab_ab_apply _ _ 2 j)
  · exact (colTile_apply _ 2 _ _ i j).trans (shapeCast_1ab_ab_apply _ _ i 2)

/-! ## The tile of kept bits -/

theorem mask_apply (x0 : Vec Ideal S1x512x3 .f32) (x1 : Vec Ideal S1x3x512 .f32) (i j : Fin 512) :
    k0_pay8 x0 x1 (ix2 i j) = (((kept (atomJ x1 j) (atomI x0 i) i j).toNat : ℝ) : EReal) := by
  refine Eq.trans ?_ (kept_signed (atomJ x1 j) (atomI x0 i) i j)
  rw [← gap0_apply x0 x1 i j, ← gap1_apply x0 x1 i j, ← gap2_apply x0 x1 i j,
    ← rowNumber_apply .tc Gen.iota_S512x1_d0_w32 Gen.broadcasts_S512x1_S512x512 i j,
    ← colNumber_apply .tc Gen.iota_S1x512_d1_w32 Gen.broadcasts_S1x512_S512x512 i j]
  rfl

/-! ## The block -/

/-- The block as a function of its index: channel `k`, row `i`, column `j` hold the entry of atoms `i` and `j`. -/
def tileFn (x0 : Vec Ideal S1x512x3 .f32) (x1 : Vec Ideal S1x3x512 .f32) : S1x3x512x512.Idx → EReal :=
  fun y => entry (atomJ x1 (y 3)) (atomI x0 (y 2)) (y 2) (y 3) (y 1)

/-- Channel `k`'s tile sits in the block at `(0, k, i, j)`. -/
theorem tile_emb (k : Fin 3) (inb : ∀ a, (![0, k.val, 0, 0] : Fin 4 → Nat) a + S1x1x512x512.size a ≤ S1x3x512x512.size a)
    (u v : Fin 1) (i j : Fin 512) :
    (Rect.unit (s := S1x3x512x512) ![0, k.val, 0, 0] S1x1x512x512.size inb).emb (ix4 u v i j) = ix4 (0 : Fin 1) k i j := by
  have hu : u.val = 0 := by omega
  have hv : v.val = 0 := by omega
  funext a
  apply Fin.ext
  match a with
  | ⟨0, _⟩ => show 0 + 1 * u.val = 0; omega
  | ⟨1, _⟩ => show k.val + 1 * v.val = k.val; omega
  | ⟨2, _⟩ => show 0 + 1 * i.val = i.val; omega
  | ⟨3, _⟩ => show 0 + 1 * j.val = j.val; omega

/-- A displacement tile times the kept tile, stored as a `[1, 1, 512, 512]` slab, is channel `k` of the block. -/
theorem slab_eq (x0 : Vec Ideal S1x512x3 .f32) (x1 : Vec Ideal S1x3x512 .f32) (k : Fin 3)
    (d : FVec Ideal S512x512 .f32) (hd : ∀ i j, d (ix2 i j) = gap (atomJ x1 j) (atomI x0 i) k)
    (h : S512x512.ShapeCasts S1x1x512x512)
    (inb : ∀ a, (![0, k.val, 0, 0] : Fin 4 → Nat) a + S1x1x512x512.size a ≤ S1x3x512x512.size a)
    (x : S1x1x512x512.Idx) :
    shapeCast S1x1x512x512 (mulf d (k0_pay8 x0 x1)) h x
      = tileFn x0 x1 ((Rect.unit (s := S1x3x512x512) ![0, k.val, 0, 0] S1x1x512x512.size inb).emb x) := by
  obtain ⟨u, v, i, j, rfl⟩ : ∃ (u v : Fin 1) (i j : Fin 512), x = ix4 u v i j := ⟨x 0, x 1, x 2, x 3, eq_ix4 x⟩
  refine Eq.trans ?_ (congrArg (tileFn x0 x1) (tile_emb k inb u v i j).symm)
  refine (shapeCast_ab_11ab_apply _ h u v i j).trans ?_
  refine (mulf_apply _ _ _).trans ?_
  rw [hd i j, mask_apply x0 x1 i j]
  rfl

theorem zeros3 : (![0, 0, 0] : Fin 3 → Nat) = fun _ => 0 := funext fun a => by fin_cases a <;> rfl

/-- What the body leaves in the output block is `tileFn` of its two input blocks: each of the three stores is the slab
    of its channel, and the three slabs cover the block. -/
theorem block_eq (x0 : Vec Ideal S1x512x3 .f32) (x1 : Vec Ideal S1x3x512 .f32) (y : S1x3x512x512.Idx) :
    out0_2 x0 x1 y = tileFn x0 x1 y := by
  unfold out0_2
  simp only [View.ld_unit_zero (S := S1x512x3) zeros3, View.ld_unit_zero (S := S1x3x512) zeros3]
  refine View.canon_apply_of_pieces (Val := Elt Ideal) (e := .f32) (tileFn x0 x1 : S1x3x512x512.Idx → Elt Ideal .f32) _ ?_ y
    (cover0_2 (F := Ideal) _ _ _ y)
  intro p hp x
  simp only [List.mem_cons, List.mem_nil_iff, or_false] at hp
  rcases hp with rfl | rfl | rfl
  · exact slab_eq x0 x1 2 (k0_pay7 x0 x1) (gap2_apply x0 x1) Gen.shapeCasts_S512x512_S1x1x512x512
      Gen.inb_S1x3x512x512_S1x1x512x512_0_2_0_0 x
  · exact slab_eq x0 x1 1 (k0_pay6 x0 x1) (gap1_apply x0 x1) Gen.shapeCasts_S512x512_S1x1x512x512
      Gen.inb_S1x3x512x512_S1x1x512x512_0_1_0_0 x
  · exact slab_eq x0 x1 0 (k0_pay5 x0 x1) (gap0_apply x0 x1) Gen.shapeCasts_S512x512_S1x1x512x512
      Gen.inb_S1x3x512x512_S1x1x512x512_0_0_0_0 x

/-- When the column input is molecule `b`'s positions `[atom, channel]` and the row input the same positions
    `[channel, atom]`, the block is molecule `b` of the channel-major list. -/
theorem tileFn_of_molecule (x0 : Vec Ideal S1x512x3 .f32) (x1 : Vec Ideal S1x3x512 .f32)
    (X : (⟨3, ![64, 512, 3]⟩ : Shape).Idx → EReal) (b : Fin 64)
    (h0 : ∀ (i : Fin 512) (c : Fin 3), x0 (ix3 (0 : Fin 1) i c) = X (ix3 b i c))
    (h1 : ∀ (c : Fin 3) (j : Fin 512), x1 (ix3 (0 : Fin 1) c j) = X (ix3 b j c))
    (u : Fin 1) (k : Fin 3) (i j : Fin 512) :
    tileFn x0 x1 (ix4 u k i j) = pairsCM X (ix4 b k i j) := by
  have e0 : atomI x0 i = atom X b i := funext fun c => h0 i c
  have e1 : atomJ x1 j = atom X b j := funext fun c => h1 c j
  show entry (atomJ x1 j) (atomI x0 i) i j k = entry (atom X b j) (atom X b i) i j k
  rw [e0, e1]

end Cert.KernelIdeal.TileValue

end
-- ==== Proof.ArrayValue.lean ====
/-
  The kernel program's result array after its run.

  Grid point `t` works on molecule `t`: its column input block is molecule `t` of the positions, its row input block
  molecule `t` of the positions with atom and channel swapped (the host's first line), and it writes back block `t` of
  the channel-major array. So every point writes its block of ONE function of the positions, the channel-major list;
  the 64 blocks cover the array; and the host's last line moves the channel axis last, which turns the channel-major
  list into the list.
-/
import proofs.«126960_j23330262352092_2_alg».proof.Proof.TileValue
import Idealize.ShloMosaic.Lib.StableHlo.Run

set_option maxRecDepth 16384

noncomputable section

namespace Cert.KernelIdeal.ArrayValue

open Idealize.ShloMosaic Idealize.ShloMosaic.TcCoe Idealize.ShloMosaic.ValueIdx Idealize.SL.Sem
open Cert.KernelIdeal Cert.KernelIdeal.Gen Cert.KernelIdeal.TileValue Cert.NeighbourList

variable (m : (ℓ : Loc nD τ sig) → Buf (Elt Ideal) ℓ) (ρ : Dev nD → PrngReg)

/-- The positions as launched on core `c`. -/
abbrev X (c : Dev nD) : (⟨3, ![64, 512, 3]⟩ : Shape).Idx → EReal := m ((c : Thread nD τ).loc main_arg0)

/-- The block indices, decided over the 64 points: every window is at block `t` on the molecule axis and at block 0
    on the others. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 4) = t.val ∧ win0_2.index t (1 : Fin 4) = 0 ∧ win0_2.index t (2 : Fin 4) = 0
    ∧ win0_2.index t (3 : Fin 4) = 0 :=
  (by decide +kernel : ∀ t : Fin grid0.N, _)

/-- Every molecule is some point's. -/
theorem idx_onto : ∀ b : Fin 64, ∃ t : Fin cfg0.N, win0_2.index t = ![b.val, 0, 0, 0] :=
  (by decide +kernel : ∀ b : Fin 64, ∃ t : Fin grid0.N, win0_2.index t = ![b.val, 0, 0, 0])

/-- The point's molecule. -/
def mol (t : Fin cfg0.N) : Fin 64 := ⟨t.val, by have h := t.isLt; have hN : cfg0.N = 64 := N_0; omega⟩

/-- The host's first line leaves the positions with atom and channel swapped. -/
theorem V_swapped (c : Dev nD) :
    (V m c main_v0 : S64x3x512.Idx → EReal)
      = transpose S64x3x512 [0, 2, 1] (X m c) Gen.transposes_S64x512x3_S64x3x512_0_2_1 := by
  show StableHlo.after hostOps0 (fun b => m (c, b)) (Proc.devRef .tc main_v0) = _
  after_results

/-- The column input block at point `t` is molecule `t`. -/
theorem colBlock_apply (c : Dev nD) (t : Fin cfg0.N) (i : Fin 512) (k : Fin 3) :
    iblk m c 0 t (ix3 (0 : Fin 1) i k) = X m c (ix3 (mol t) i k) := by
  obtain ⟨e0, e1, e2, -⟩ := idx_facts t
  show V m c main_arg0 (((cfg0.win 0).blk t).view.emb (ix3 (0 : Fin 1) i k)) = _
  rw [V_main_arg0]
  refine congrArg (X m c) (funext fun a => Fin.ext ?_)
  match a with
  | ⟨0, _⟩ => show win0_0.index t (0 : Fin 3) * 1 + 1 * 0 = t.val; omega
  | ⟨1, _⟩ => show win0_0.index t (1 : Fin 3) * 512 + 1 * i.val = i.val; omega
  | ⟨2, _⟩ => show win0_0.index t (2 : Fin 3) * 3 + 1 * k.val = k.val; omega

/-- The row input block at point `t` is molecule `t`, atom and channel swapped. -/
theorem rowBlock_apply (c : Dev nD) (t : Fin cfg0.N) (k : Fin 3) (j : Fin 512) :
    iblk m c 1 t (ix3 (0 : Fin 1) k j) = X m c (ix3 (mol t) j k) := by
  obtain ⟨-, -, -, e0, e1, e2, -⟩ := idx_facts t
  show (V m c main_v0 : S64x3x512.Idx → EReal) (((cfg0.win 1).blk t).view.emb (ix3 (0 : Fin 1) k j)) = _
  rw [V_swapped]
  refine Eq.trans (congrArg (transpose S64x3x512 [0, 2, 1] (X m c) Gen.transposes_S64x512x3_S64x3x512_0_2_1)
    (funext fun a => Fin.ext ?_)) (transpose_ix3_021_apply (X m c) _ (mol t) k j)
  match a with
  | ⟨0, _⟩ => show win0_1.index t (0 : Fin 3) * 1 + 1 * 0 = t.val; omega
  | ⟨1, _⟩ => show win0_1.index t (1 : Fin 3) * 3 + 1 * k.val = k.val; omega
  | ⟨2, _⟩ => show win0_1.index t (2 : Fin 3) * 512 + 1 * j.val = j.val; omega

/-- WHAT POINT `t` WRITES BACK is block `t` of the channel-major list of the positions. -/
theorem flushed_eq (c : Dev nD) (t : Fin cfg0.N) :
    (dats m 0 c).flushed 2 t = ((cfg0.win 2).blk t).view.read (Elt Ideal) (pairsCM (X m c)) := by
  show (cfg0.win 2).cut (grid0.coords t) ((dats m 0 c).after 2 t) = _
  rw [after0_2]
  obtain ⟨-, -, -, -, -, -, e0, e1, e2, e3⟩ := idx_facts t
  funext y
  obtain ⟨u, k, i, j, rfl⟩ : ∃ (u : Fin 1) (k : Fin 3) (i j : Fin 512), y = ix4 u k i j := ⟨y 0, y 1, y 2, y 3, eq_ix4 y⟩
  show out0_2 (iblk m c 0 t) (iblk m c 1 t) (ix4 u k i j) = pairsCM (X m c) (((cfg0.win 2).blk t).view.emb (ix4 u k i j))
  refine (block_eq _ _ _).trans ?_
  refine (tileFn_of_molecule _ _ (X m c) (mol t) (colBlock_apply m c t) (rowBlock_apply m c t) u k i j).trans ?_
  have hu : u.val = 0 := by omega
  refine congrArg (pairsCM (X m c)) (funext fun a => Fin.ext ?_)
  match a with
  | ⟨0, _⟩ => show t.val = win0_2.index t (0 : Fin 4) * 1 + 1 * u.val; omega
  | ⟨1, _⟩ => show k.val = win0_2.index t (1 : Fin 4) * 3 + 1 * k.val; omega
  | ⟨2, _⟩ => show i.val = win0_2.index t (2 : Fin 4) * 512 + 1 * i.val; omega
  | ⟨3, _⟩ => show j.val = win0_2.index t (3 : Fin 4) * 512 + 1 * j.val; omega

/-- An index of the array is in point `t`'s block iff each coordinate is in the block's range on its axis. -/
theorem mem_blk (t : Fin cfg0.N) (q : S64x3x512x512.Idx) :
    q ∈ ((cfg0.win 2).blk t).view.set ↔ ∀ a : Fin 4, win0_2.index t a * S1x3x512x512.size a ≤ (q a).val
      ∧ (q a).val < win0_2.index t a * S1x3x512x512.size a + S1x3x512x512.size a := by
  show q ∈ ((View.whole main_v1).slice (win0_2.rect t)).set ↔ _
  rw [View.set_slice_whole, Rect.mem_set_unit]
  exact Iff.rfl

/-- Every index of the array is in its molecule's block. -/
theorem cover (q : S64x3x512x512.Idx) :
    ∃ t : Fin cfg0.N, (cfg0.win 2).flush t = true ∧ q ∈ ((cfg0.win 2).blk t).view.set := by
  obtain ⟨t, ht⟩ := idx_onto ⟨(q 0).val, (q 0).isLt⟩
  have q0 : win0_2.index t (0 : Fin 4) = (q 0).val := congrFun ht 0
  have q1 : win0_2.index t (1 : Fin 4) = 0 := congrFun ht 1
  have q2 : win0_2.index t (2 : Fin 4) = 0 := congrFun ht 2
  have q3 : win0_2.index t (3 : Fin 4) = 0 := congrFun ht 3
  have h1 : (q 1).val < 3 := (q 1).isLt
  have h2 : (q 2).val < 512 := (q 2).isLt
  have h3 : (q 3).val < 512 := (q 3).isLt
  refine ⟨t, flush0_2 t, ?_⟩
  rw [mem_blk]
  intro a
  match a with
  | ⟨0, _⟩ => show win0_2.index t (0 : Fin 4) * 1 ≤ (q 0).val ∧ (q 0).val < win0_2.index t (0 : Fin 4) * 1 + 1; omega
  | ⟨1, _⟩ => show win0_2.index t (1 : Fin 4) * 3 ≤ (q 1).val ∧ (q 1).val < win0_2.index t (1 : Fin 4) * 3 + 3; omega
  | ⟨2, _⟩ => show win0_2.index t (2 : Fin 4) * 512 ≤ (q 2).val ∧ (q 2).val < win0_2.index t (2 : Fin 4) * 512 + 512; omega
  | ⟨3, _⟩ => show win0_2.index t (3 : Fin 4) * 512 ≤ (q 3).val ∧ (q 3).val < win0_2.index t (3 : Fin 4) * 512 + 512; omega

/-- THE CHANNEL-MAJOR ARRAY after the region is the channel-major list of the positions. -/
theorem final (c : Dev nD) : (dats m 0 c).arrAt 2 cfg0.N = pairsCM (X m c) :=
  (dats m 0 c).arrAt_eq_of_cover 2 (pairsCM (X m c)) (fun t _ => flushed_eq m c t) cover

/-- The host's last line moves the channel axis last: @main's result is the list. -/
theorem result_eq (c : Dev nD) :
    Pipeline.afterTail₀ cfgs (dats m) 0 (V0 m) [hostOps1] c main_v2 = pairs (X m c) := by
  unfold Pipeline.afterTail₀
  show StableHlo.after hostOps1 _ (Proc.devRef .tc main_v2) = _
  after_results
  have hw : Pipeline.withArrays (cfgs 0).spec c (V0 m c) (fun w => (dats m 0 c).arrAt w (cfgs 0).N)
      (Proc.devRef .tc main_v1) = pairsCM (X m c) :=
    (Pipeline.withArrays_arr spec0 winFacts0.arr_inj c _ _ 2).trans (final m c)
  rw [hw]
  funext q
  obtain ⟨b, i, j, k, rfl⟩ : ∃ (b : Fin 64) (i j : Fin 512) (k : Fin 3), q = ix4 b i j k :=
    ⟨q 0, q 1, q 2, q 3, eq_ix4 q⟩
  exact (transpose_ix4_0231_apply (pairsCM (X m c)) _ b i j k).trans rfl

/-- THE RUN: every weakly fair execution of the kernel program ends with its result at the list of the positions as
    launched, and the positions unchanged. -/
theorem run : θ_run defs (onTc (τ := τ) (main (F := Ideal))) ⟨m, fun _ => 0, ρ⟩ (fun r => ∀ c : Dev nD,
      r.2.mem ((c.tc : Thread nD τ).loc main_v2) = pairs (m ((c.tc : Thread nD τ).loc main_arg0))
      ∧ r.2.mem ((c.tc : Thread nD τ).loc main_arg0) = m ((c.tc : Thread nD τ).loc main_arg0)) :=
  (θ_run defs _ _).mono (fun r h c =>
      ⟨((h c).2 main_v2 (Pipeline.mem_restRefs_of main_v2 rfl (by decide))).trans (result_eq m c),
        ((h c).1 0).trans (((dats m 0 c).arrAt_in 0 rfl _).trans ((A_eq m c 0).trans (V_main_arg0 m c)))⟩)
    (run_main m ρ)

end Cert.KernelIdeal.ArrayValue

end
-- ==== Proof.RefValue.lean ====
/-
  The reference's result is the neighbour list `pairs` of its argument.

  The reference broadcasts the positions to `[molecule, i, j, channel]` twice (once varying with `j`, once with `i`),
  subtracts, sums the squares over the channel from zero, compares with 49, excludes `i = j` by comparing two counts of
  the atom number, and multiplies the displacement by the kept bit read as an unsigned number. Read at `(b, i, j, c)`,
  stage by stage, each of these is the corresponding part of `entry`.
-/
import proofs.«126960_j23330262352092_2_alg».proof.Proof.Gen.ReferenceIdeal.Read
import proofs.«126960_j23330262352092_2_alg».proof.Proof.PairSpec

noncomputable section

namespace Cert.ReferenceIdeal.ListValue

open Idealize.ShloMosaic Idealize.ShloMosaic.ValueIdx Cert.ReferenceIdeal Cert.ReferenceIdeal.Read Cert.NeighbourList

/-- The displacement stage at `(b, i, j, k)`: atom `j`'s coordinate minus atom `i`'s. -/
theorem disp_apply (X : (⟨S64x512x3, .f32⟩ : BufTy).Contents (Elt Ideal)) (b : Fin 64) (i j : Fin 512) (k : Fin 3) :
    val_main_v4 (F := Ideal) X (ix4 b i j k) = gap (atom X b j) (atom X b i) k := by
  have e1 : idx_main_v0 (idx_main_v2 (ix4 b i j k)) = ix3 b j k :=
    funext fun a => Fin.ext (by match a with | ⟨0, _⟩ => rfl | ⟨1, _⟩ => rfl | ⟨2, _⟩ => rfl)
  have e2 : idx_main_v1 (idx_main_v3 (ix4 b i j k)) = ix3 b i k :=
    funext fun a => Fin.ext (by match a with | ⟨0, _⟩ => rfl | ⟨1, _⟩ => rfl | ⟨2, _⟩ => rfl)
  rw [val_main_v4_apply, val_main_v2_apply, val_main_v0_apply, val_main_v3_apply, val_main_v1_apply, e1, e2]
  rfl

/-- The reference's result, index by index, is the list. -/
theorem result_eq (X : (⟨S64x512x3, .f32⟩ : BufTy).Contents (Elt Ideal)) :
    val_main_v21 (F := Ideal) X = pairs X := by
  funext q
  obtain ⟨b, i, j, c, rfl⟩ : ∃ (b : Fin 64) (i j : Fin 512) (c : Fin 3), q = ix4 b i j c :=
    ⟨q 0, q 1, q 2, q 3, eq_ix4 q⟩
  have hidx : ∀ k : Fin 3, idx_main_v6 (idx_main_v18 (idx_main_v20 (ix4 b i j c))) k = ix4 b i j k := fun k =>
    funext fun a => Fin.ext (by match a with | ⟨0, _⟩ => rfl | ⟨1, _⟩ => rfl | ⟨2, _⟩ => rfl | ⟨3, _⟩ => rfl)
  -- the squared distance: zero plus the sum over the channel of the squared displacements
  have hsum : val_main_v6 (F := Ideal) X (idx_main_v18 (idx_main_v20 (ix4 b i j c))) = dist2 (atom X b j) (atom X b i) := by
    rw [val_main_v6_apply]
    unfold dist2
    refine congrArg₂ (· + ·) rfl (Finset.sum_congr rfl fun k _ => ?_)
    rw [hidx k, val_main_v5_apply, disp_apply X b i j k]
    rfl
  -- the self-pair bit: the two counts of the atom number compared, negated
  have hoff : val_main_v16 (F := Ideal) (idx_main_v18 (idx_main_v20 (ix4 b i j c))) = offDiag i j := by
    rw [val_main_v16_apply, val_main_v15_apply, val_main_v14_apply, val_main_v11_apply, val_main_v10_apply,
      val_main_v7_apply, val_main_v9_apply, val_main_c_apply, val_main_v8_apply, addi_zero]
    rfl
  rw [val_main_v21_apply, disp_apply X b i j c, val_main_v20_apply, val_main_v19_apply, val_main_v18_apply,
    val_main_v17_apply, val_main_v13_apply, hsum, hoff, val_main_v12_apply, val_main_cst_0_apply]
  rfl

end Cert.ReferenceIdeal.ListValue

end
-- ==== Proof.lean ====
/-
  The dense neighbour list of 64 molecules of 512 atoms: a kernel that builds it one molecule per grid point, channel
  by channel, against the array-at-once reference.

  Both programs compute, for positions `X`, the array whose entry at `(molecule b, atom i, atom j, channel c)` is the
  displacement `X b j c − X b i c` times the bit — read as 0 or 1 — "the squared distance of atoms `i` and `j` is below 49
  and `i ≠ j`" (`Cert.NeighbourList.pairs`, Proof/PairSpec.lean).

  * The kernel program first swaps the atom and channel axes of the positions on the host, then at grid point `t` reads
    molecule `t` in both layouts, forms for each channel the 512 × 512 tile of displacements from a column of
    i-atoms and a row of j-atoms, adds the three squared tiles one after the other onto zero, compares with 49,
    excludes the diagonal by comparing a row count with a column count, and stores displacement times bit as three
    slabs of a `[1, 3, 512, 512]` block; the host's last line moves the channel axis last. Proof/TileValue.lean reads
    the block index by index, Proof/ArrayValue.lean the blocks as one array and the two host lines.
  * The reference broadcasts, subtracts, sums the squares over the channel axis, compares, masks and multiplies on whole
    arrays: Proof/RefValue.lean reads its generated run stage by stage.

  The two agree on every extended-real input: the only laws used are the associativity of addition (three squares
  added one by one against their sum), that an exclusive-or with 1 negates a bit, and that a bit widened with zeros
  reads the same signed as unsigned. No finiteness is needed, so the precondition is never opened.
  The idealization rewrote nothing, so `preserves` holds trivially; the three frames are the generated frame runs.
-/
import proofs.«126960_j23330262352092_2_alg».proof.Defs
import proofs.«126960_j23330262352092_2_alg».proof.Proof.Gen.Kernel
import proofs.«126960_j23330262352092_2_alg».proof.Proof.Gen.Kernel.Skeleton
import proofs.«126960_j23330262352092_2_alg».proof.Proof.Gen.Kernel.Launch
import proofs.«126960_j23330262352092_2_alg».proof.Proof.Gen.Kernel.Points
import proofs.«126960_j23330262352092_2_alg».proof.Proof.Gen.Kernel.Frame
import proofs.«126960_j23330262352092_2_alg».proof.Proof.Gen.KernelIdeal
import proofs.«126960_j23330262352092_2_alg».proof.Proof.Gen.KernelIdeal.Skeleton
import proofs.«126960_j23330262352092_2_alg».proof.Proof.Gen.KernelIdeal.Launch
import proofs.«126960_j23330262352092_2_alg».proof.Proof.Gen.KernelIdeal.Points
import proofs.«126960_j23330262352092_2_alg».proof.Proof.Gen.KernelIdeal.Frame
import proofs.«126960_j23330262352092_2_alg».proof.Proof.Gen.ReferenceIdeal
import proofs.«126960_j23330262352092_2_alg».proof.Proof.Gen.Pre_finite_inputs
import proofs.«126960_j23330262352092_2_alg».proof.Proof.Gen.ReferenceIdeal.Run
import proofs.«126960_j23330262352092_2_alg».proof.Proof.Gen.ReferenceIdeal.Read
import proofs.«126960_j23330262352092_2_alg».proof.Proof.ArrayValue
import proofs.«126960_j23330262352092_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and keeps its argument: the generated frame run. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and keeps its argument: its generated run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the positions, both idealized programs end with the neighbour list of the positions. -/
theorem algebraic : Cert.algebraic_KernelIdeal_ReferenceIdeal := by
  intro m ρ m' ρ' _ hagree
  refine ⟨fun c => Cert.NeighbourList.pairs (m ((c.tc : Thread Cert.KernelIdeal.nD Cert.KernelIdeal.τ).loc Cert.KernelIdeal.main_arg0)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ReferenceIdeal.ListValue.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
